-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x48x1 : Shape := ⟨3, ![524288, 48, 1]⟩
abbrev S4x4 : Shape := ⟨2, ![4, 4]⟩
abbrev S_ : Shape := ⟨0, ![]⟩

class Facts : Prop where
  bcast_S_S524288x48x1 : S_.BroadcastsInDim S524288x48x1 (![] : Fin 0 → Fin S524288x48x1.rank)
  reducesTo_S524288x48x1_S_d0_1_2 : S524288x48x1.ReducesTo [0, 1, 2] S_
  h_S_ : 0 < S_.numel
  bcast_S_S4x4 : S_.BroadcastsInDim S4x4 (![] : Fin 0 → Fin S4x4.rank)
  reducesTo_S4x4_S_d0_1 : S4x4.ReducesTo [0, 1] S_

variable [Facts]

def fn {F : FTy → Type} [FloatOps F] (main_arg0 : FVec F S524288x48x1 .f32) (main_arg1 : FVec F S524288x48x1 .f32) (main_arg2 : FVec F S4x4 .f32) : IVec S_ 1 :=
  let main_v0 : FVec F S524288x48x1 .f32 := Host.absf main_arg0
  let main_cst : FVec F S_ .f32 := constant S_ .f32 0x7F800000#32
  let main_v1 : FVec F S524288x48x1 .f32 := broadcastInDim S524288x48x1 ![] bcast_S_S524288x48x1 main_cst
  let main_v2 : IVec S524288x48x1 1 := cmpf .olt main_v0 main_v1
  let main_c : IVec S_ 1 := constantI S_ 1 1#1
  let main_v3 : IVec S_ 1 := (fun x v => Host.reduce IntOp.andi x v reducesTo_S524288x48x1_S_d0_1_2 h_S_) main_v2 main_c
  let main_v4 : FVec F S524288x48x1 .f32 := Host.absf main_arg1
  let main_cst_0 : FVec F S_ .f32 := constant S_ .f32 0x7F800000#32
  let main_v5 : FVec F S524288x48x1 .f32 := broadcastInDim S524288x48x1 ![] bcast_S_S524288x48x1 main_cst_0
  let main_v6 : IVec S524288x48x1 1 := cmpf .olt main_v4 main_v5
  let main_c_1 : IVec S_ 1 := constantI S_ 1 1#1
  let main_v7 : IVec S_ 1 := (fun x v => Host.reduce IntOp.andi x v reducesTo_S524288x48x1_S_d0_1_2 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  main_v13
-- ==== Kernel.lean ====
abbrev S524288x48x1 : Shape := ⟨3, ![524288, 48, 1]⟩
abbrev S4x4 : Shape := ⟨2, ![4, 4]⟩
abbrev S_ : Shape := ⟨0, ![]⟩
abbrev S524288x48 : Shape := ⟨2, ![524288, 48]⟩
abbrev S196608x128 : Shape := ⟨2, ![196608, 128]⟩
abbrev S2x1x128 : Shape := ⟨3, ![2, 1, 128]⟩
abbrev S8192x128 : Shape := ⟨2, ![8192, 128]⟩
abbrev S1x1x128 : Shape := ⟨3, ![1, 1, 128]⟩
abbrev S1x128 : Shape := ⟨2, ![1, 128]⟩
abbrev S1x1 : Shape := ⟨2, ![1, 1]⟩
abbrev S128 : Shape := ⟨1, ![128]⟩

abbrev nBuf : Space → Nat
  | .hbm => 18
  | .vmem => 8
  | .smem => 0
  | _ => 0

abbrev bufTy : (tb : Table) → Fin (tcTables nBuf tb) → BufTy
  | .hbm, ⟨0, _⟩ => ⟨S524288x48x1, .f32⟩
  | .hbm, ⟨1, _⟩ => ⟨S524288x48x1, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S_, .f32⟩
  | .hbm, ⟨6, _⟩ => ⟨S_, .f32⟩
  | .hbm, ⟨7, _⟩ => ⟨S4x4, .f32⟩
  | .hbm, ⟨8, _⟩ => ⟨S4x4, .f32⟩
  | .hbm, ⟨9, _⟩ => ⟨S524288x48, .f32⟩
  | .hbm, ⟨10, _⟩ => ⟨S196608x128, .f32⟩
  | .hbm, ⟨11, _⟩ => ⟨S524288x48, .f32⟩
  | .hbm, ⟨12, _⟩ => ⟨S196608x128, .f32⟩
  | .hbm, ⟨13, _⟩ => ⟨S2x1x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S4x4, .f32⟩
  | .local _ .vmem, ⟨5, _⟩ => ⟨S1x1x128, .f32⟩
  | .local _ .vmem, ⟨6, _⟩ => ⟨S1x1x128, .f32⟩
  | .local _ .vmem, ⟨7, _⟩ => ⟨S1x128, .f32⟩
  | _, _ => ⟨S524288x48x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg1 : BitVec 32 := BitVec.ofNat 32 (i 1).val
  let c11_i32 : BitVec 32 := 11#32
  let v180 : BitVec 1 := Scalar.cmpi .eq arg1 c11_i32
  let v181 : BitVec 32 := Scalar.extui v180
  let c0_i32_46 : BitVec 32 := 0#32
  let v182 : BitVec 1 := Scalar.cmpi .ne v181 c0_i32_46
  v182

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4x4_S_d0_1 : S4x4.ReducesTo [0, 1] S_
  h_S_ : 0 < S_.numel
  bcast_S_S4x4 : S_.BroadcastsInDim S4x4 (![] : Fin 0 → Fin S4x4.rank)
  shapeCasts_S524288x48x1_S524288x48 : S524288x48x1.ShapeCasts S524288x48
  shapeCasts_S524288x48_S196608x128 : S524288x48.ShapeCasts S196608x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S4x4_S4x4_0_0 : ∀ a, (![0, 0] : Fin 2 → Nat) a + S4x4.size a ≤ S4x4.size a
  h_S4x4 : 0 < S4x4.numel
  shapeCasts_S4x4_S4x4 : S4x4.ShapeCasts S4x4
  slices_S4x4_o0_0_S1x1 : S4x4.Slices ![0, 0] S1x1
  inpos_S1x1_p0_0 : ∀ a, (![0, 0] : Fin 2 → Nat) a < S1x1.size a
  slices_S4x4_o0_1_S1x1 : S4x4.Slices ![0, 1] S1x1
  slices_S4x4_o0_2_S1x1 : S4x4.Slices ![0, 2] S1x1
  slices_S4x4_o0_3_S1x1 : S4x4.Slices ![0, 3] S1x1
  slices_S4x4_o1_0_S1x1 : S4x4.Slices ![1, 0] S1x1
  slices_S4x4_o1_1_S1x1 : S4x4.Slices ![1, 1] S1x1
  slices_S4x4_o1_2_S1x1 : S4x4.Slices ![1, 2] S1x1
  slices_S4x4_o1_3_S1x1 : S4x4.Slices ![1, 3] S1x1
  slices_S4x4_o2_0_S1x1 : S4x4.Slices ![2, 0] S1x1
  slices_S4x4_o2_1_S1x1 : S4x4.Slices ![2, 1] S1x1
  slices_S4x4_o2_2_S1x1 : S4x4.Slices ![2, 2] S1x1
  slices_S4x4_o2_3_S1x1 : S4x4.Slices ![2, 3] S1x1
  slices_S4x4_o3_0_S1x1 : S4x4.Slices ![3, 0] S1x1
  slices_S4x4_o3_1_S1x1 : S4x4.Slices ![3, 1] S1x1
  slices_S4x4_o3_2_S1x1 : S4x4.Slices ![3, 2] S1x1
  slices_S4x4_o3_3_S1x1 : S4x4.Slices ![3, 3] S1x1
  reduces_S8192x128_S128 : S8192x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S196608x128.size a
  hwx0_0 : ∀ i : grid0.Coords, EltTy.bits .f32 = 32 ∨ (Rect.block (s := S196608x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S196608x128.size a
  hwx0_1 : ∀ i : grid0.Coords, EltTy.bits .f32 = 32 ∨ (Rect.block (s := S196608x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4.size a ≤ S4x4.size a
  hwx0_2 : ∀ i : grid0.Coords, EltTy.bits .f32 = 32 ∨ (Rect.block (s := S4x4) S4x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x48x1 : Shape := ⟨3, ![524288, 48, 1]⟩
abbrev S4x4 : Shape := ⟨2, ![4, 4]⟩
abbrev S_ : Shape := ⟨0, ![]⟩
abbrev S524288x48 : Shape := ⟨2, ![524288, 48]⟩
abbrev S524288x48x2 : Shape := ⟨3, ![524288, 48, 2]⟩

abbrev nBuf : Space → Nat
  | .hbm => 63
  | .vmem => 0
  | .smem => 0
  | _ => 0

abbrev bufTy : (tb : Table) → Fin (tcTables nBuf tb) → BufTy
  | .hbm, ⟨0, _⟩ => ⟨S524288x48x1, .f32⟩
  | .hbm, ⟨1, _⟩ => ⟨S524288x48x1, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S_, .f32⟩
  | .hbm, ⟨6, _⟩ => ⟨S_, .f32⟩
  | .hbm, ⟨7, _⟩ => ⟨S4x4, .f32⟩
  | .hbm, ⟨8, _⟩ => ⟨S4x4, .f32⟩
  | .hbm, ⟨9, _⟩ => ⟨S524288x48, .f32⟩
  | .hbm, ⟨10, _⟩ => ⟨S524288x48, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S524288x48, .f32⟩
  | .hbm, ⟨15, _⟩ => ⟨S524288x48, .f32⟩
  | .hbm, ⟨16, _⟩ => ⟨S_, .f32⟩
  | .hbm, ⟨17, _⟩ => ⟨S524288x48, .f32⟩
  | .hbm, ⟨18, _⟩ => ⟨S524288x48, .f32⟩
  | .hbm, ⟨19, _⟩ => ⟨S_, .f32⟩
  | .hbm, ⟨20, _⟩ => ⟨S524288x48, .f32⟩
  | .hbm, ⟨21, _⟩ => ⟨S524288x48, .f32⟩
  | .hbm, ⟨22, _⟩ => ⟨S524288x48, .i32⟩
  | .hbm, ⟨23, _⟩ => ⟨S524288x48, .f32⟩
  | .hbm, ⟨24, _⟩ => ⟨S524288x48, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S524288x48, .f32⟩
  | .hbm, ⟨29, _⟩ => ⟨S524288x48, .f32⟩
  | .hbm, ⟨30, _⟩ => ⟨S_, .f32⟩
  | .hbm, ⟨31, _⟩ => ⟨S524288x48, .f32⟩
  | .hbm, ⟨32, _⟩ => ⟨S524288x48, .f32⟩
  | .hbm, ⟨33, _⟩ => ⟨S_, .f32⟩
  | .hbm, ⟨34, _⟩ => ⟨S524288x48, .f32⟩
  | .hbm, ⟨35, _⟩ => ⟨S524288x48, .f32⟩
  | .hbm, ⟨36, _⟩ => ⟨S524288x48, .i32⟩
  | .hbm, ⟨37, _⟩ => ⟨S_, .i32⟩
  | .hbm, ⟨38, _⟩ => ⟨S524288x48, .i32⟩
  | .hbm, ⟨39, _⟩ => ⟨S524288x48, .i1⟩
  | .hbm, ⟨40, _⟩ => ⟨S_, .i32⟩
  | .hbm, ⟨41, _⟩ => ⟨S524288x48, .i32⟩
  | .hbm, ⟨42, _⟩ => ⟨S524288x48, .i32⟩
  | .hbm, ⟨43, _⟩ => ⟨S524288x48, .i32⟩
  | .hbm, ⟨44, _⟩ => ⟨S_, .i32⟩
  | .hbm, ⟨45, _⟩ => ⟨S524288x48, .i32⟩
  | .hbm, ⟨46, _⟩ => ⟨S524288x48, .i1⟩
  | .hbm, ⟨47, _⟩ => ⟨S_, .i32⟩
  | .hbm, ⟨48, _⟩ => ⟨S524288x48, .i32⟩
  | .hbm, ⟨49, _⟩ => ⟨S524288x48, .i32⟩
  | .hbm, ⟨50, _⟩ => ⟨S524288x48, .i32⟩
  | .hbm, ⟨51, _⟩ => ⟨S524288x48x1, .i32⟩
  | .hbm, ⟨52, _⟩ => ⟨S524288x48x1, .i32⟩
  | .hbm, ⟨53, _⟩ => ⟨S524288x48x2, .i32⟩
  | .hbm, ⟨54, _⟩ => ⟨S524288x48, .f32⟩
  | .hbm, ⟨55, _⟩ => ⟨S524288x48x1, .f32⟩
  | .hbm, ⟨56, _⟩ => ⟨S524288x48x1, .f32⟩
  | .hbm, ⟨57, _⟩ => ⟨S524288x48, .f32⟩
  | .hbm, ⟨58, _⟩ => ⟨S524288x48, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S524288x48x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  reducesTo_S4x4_S_d0_1 : S4x4.ReducesTo [0, 1] S_
  h_S_ : 0 < S_.numel
  bcast_S_S4x4 : S_.BroadcastsInDim S4x4 (![] : Fin 0 → Fin S4x4.rank)
  shapeCasts_S524288x48x1_S524288x48 : S524288x48x1.ShapeCasts S524288x48
  bcast_S_S524288x48 : S_.BroadcastsInDim S524288x48 (![] : Fin 0 → Fin S524288x48.rank)
  bcast_S524288x48_S524288x48x1_0_1 : S524288x48.BroadcastsInDim S524288x48x1 (![0, 1] : Fin 2 → Fin S524288x48x1.rank)
  concatenates_S524288x48x1_S524288x48x1_S524288x48x2_d2 : Shape.Concatenates [S524288x48x1, S524288x48x1] S524288x48x2 2
  reducesTo_S524288x48_S_d0_1 : S524288x48.ReducesTo [0, 1] S_
  gather_S4x4_S524288x48x2_S524288x48_n_01_n_n_01_2_11_wf : GatherDims.WF S4x4 S524288x48x2 S524288x48 [] [0, 1] [] [0, 1] [] 2 ![1, 1]

variable [Facts₀]

def gather_S4x4_S524288x48x2_S524288x48_n_01_n_n_01_2_11 : GatherDims S4x4 S524288x48x2 S524288x48 where
  offsetDims := []
  collapsedSliceDims := [0, 1]
  operandBatchingDims := []
  startIndicesBatchingDims := []
  startIndexMap := [0, 1]
  indexVectorDim := 2
  sliceSizes := ![1, 1]
  wf := gather_S4x4_S524288x48x2_S524288x48_n_01_n_n_01_2_11_wf

class Facts : Prop extends Facts₀ where

variable [Facts]
-- ==== Proof.Spec.lean ====
/-
  The mathematics both programs compute, stated with no program in sight.

  Every entry x of pred and of true is sent to a class in {0,1,2,3}: floor x, clipped to [-1, 2], plus one,
  converted to a 32-bit integer.  A 4×4 table sm is read at (class of true, class of pred); one program reads it
  by an index, the other by sixteen nested selections, each keeping the previous value unless its pair of
  classes is the one at hand.  The two readings agree because a class is always one of 0, 1, 2, 3, so exactly
  one selection fires.  The loss is the sum over all entries of (pred - true)² times that table entry, divided by
  524288.
-/
import Idealize.ShloMosaic.PureOps.Ideal
import Idealize.ShloMosaic.Lib.ValueIdx

noncomputable section

namespace Cert.Gmgs

open Idealize.ShloMosaic Idealize.ShloMosaic.ValueIdx

/-! ## The three literals of the clipping -/

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The coercion of the reals into the extended reals is monotone, so it carries max to max -/
theorem coe_max' (a b : ℝ) : max (a : EReal) (b : EReal) = ((max a b : ℝ) : EReal) :=
  (EReal.coe_strictMono.monotone.map_max).symm

/-- and min to min. -/
theorem coe_min' (a b : ℝ) : min (a : EReal) (b : EReal) = ((min a b : ℝ) : EReal) :=
  (EReal.coe_strictMono.monotone.map_min).symm

/-! ## The class of an entry -/

/-- The class of x: min 2 (max (-1) ⌊x⌋) + 1, as a 32-bit integer. -/
def cls (x : EReal) : BitVec 32 :=
  Ideal.fptosi 32 (min (Ideal.ofBits .f32 0x40000000#32) (max (Ideal.ofBits .f32 0xBF800000#32) (Ideal.liftRound Int.floor x))
    + Ideal.ofBits .f32 0x3F800000#32)

/-- The clipped floor of any extended real is an integer between -1 and 2: the infinities clip to the ends. -/
theorem clip_floor (x : EReal) : ∃ k : ℤ, -1 ≤ k ∧ k ≤ 2 ∧
    min (((2 : ℝ)) : EReal) (max (((-1 : ℝ)) : EReal) (Ideal.liftRound Int.floor x)) = ((k : ℝ) : EReal) := by
  induction x using EReal.rec with
  | bot =>
    refine ⟨-1, le_refl _, by norm_num, ?_⟩
    rw [Ideal.liftRound_bot, max_eq_left bot_le, min_eq_right (by exact_mod_cast (by norm_num : (-1 : ℝ) ≤ 2))]
    norm_num
  | top =>
    refine ⟨2, by norm_num, le_refl _, ?_⟩
    rw [Ideal.liftRound_top, max_eq_right le_top, min_eq_left le_top]
    norm_num
  | coe r =>
    refine ⟨min 2 (max (-1) ⌊r⌋), le_min (by norm_num) (le_max_left _ _), min_le_left _ _, ?_⟩
    rw [Ideal.liftRound_coe, coe_max', coe_min']
    congr 1
    push_cast
    rfl

/-- A class is 0, 1, 2 or 3. -/
theorem cls_mem (x : EReal) : cls x = 0#32 ∨ cls x = 1#32 ∨ cls x = 2#32 ∨ cls x = 3#32 := by
  obtain ⟨k, h1, h2, hk⟩ := clip_floor x
  unfold cls
  rw [ofBits_two, ofBits_neg_one, ofBits_one, hk, ← EReal.coe_add, Ideal.fptosi, Ideal.toIntClamped_coe]
  have hr : ((k : ℝ) + 1) = (((k + 1 : ℤ)) : ℝ) := by push_cast; rfl
  rw [hr, Int.floor_intCast, Int.ceil_intCast, ite_self]
  interval_cases k
  · left; decide
  · right; left; decide
  · right; right; left; decide
  · right; right; right; decide

/-! ## The table entry of a pair of classes, by sixteen selections -/

/-- One selection: the table's entry (i, j) if the classes are (ci, cj), else the value so far. -/
def pick (sm : (⟨2, ![4, 4]⟩ : Shape).Idx → EReal) (tc pc ci cj : BitVec 32) (i j : Fin 4) (w : EReal) : EReal :=
  Scalar.select (IntOp.andi (IntOp.cmpi .eq tc ci) (IntOp.cmpi .eq pc cj)) (sm (ix2 i j)) w

/-- The sixteen selections in row-major order of (class of true, class of pred), starting from zero. -/
def wsel (sm : (⟨2, ![4, 4]⟩ : Shape).Idx → EReal) (tc pc : BitVec 32) : EReal :=
  pick sm tc pc 3#32 3#32 3 3 <| pick sm tc pc 3#32 2#32 3 2 <| pick sm tc pc 3#32 1#32 3 1 <| pick sm tc pc 3#32 0#32 3 0 <|
  pick sm tc pc 2#32 3#32 2 3 <| pick sm tc pc 2#32 2#32 2 2 <| pick sm tc pc 2#32 1#32 2 1 <| pick sm tc pc 2#32 0#32 2 0 <|
  pick sm tc pc 1#32 3#32 1 3 <| pick sm tc pc 1#32 2#32 1 2 <| pick sm tc pc 1#32 1#32 1 1 <| pick sm tc pc 1#32 0#32 1 0 <|
  pick sm tc pc 0#32 3#32 0 3 <| pick sm tc pc 0#32 2#32 0 2 <| pick sm tc pc 0#32 1#32 0 1 <| pick sm tc pc 0#32 0#32 0 0 <|
  Ideal.ofBits .f32 0x00000000#32

/-- A class as a table coordinate. -/
def coord (c : BitVec 32) : Fin 4 := ⟨min c.toInt.toNat 3, by omega⟩

/-- On classes in range the sixteen selections read the table at the pair of classes. -/
theorem wsel_eq (sm : (⟨2, ![4, 4]⟩ : Shape).Idx → EReal) (tc pc : BitVec 32)
    (ht : tc = 0#32 ∨ tc = 1#32 ∨ tc = 2#32 ∨ tc = 3#32) (hp : pc = 0#32 ∨ pc = 1#32 ∨ pc = 2#32 ∨ pc = 3#32) :
    wsel sm tc pc = sm (ix2 (coord tc) (coord pc)) := by
  rcases ht with rfl | rfl | rfl | rfl <;> rcases hp with rfl | rfl | rfl | rfl <;> rfl

/-! ## One entry's term and the loss -/

/-- One entry's contribution: (p - t)² times the table entry of the two classes. -/
def term (sm : (⟨2, ![4, 4]⟩ : Shape).Idx → EReal) (p t : EReal) : EReal :=
  (p - t) * (p - t) * wsel sm (cls t) (cls p)

/-- Entry k of a [524288, 48, 1] array in row-major order: (k / 48, k % 48, 0). -/
def flatIdx (k : ℕ) : (⟨3, ![524288, 48, 1]⟩ : Shape).Idx :=
  fun a => match a with
    | ⟨0, _⟩ => ⟨k / 48 % 524288, Nat.mod_lt _ (by norm_num)⟩
    | ⟨1, _⟩ => ⟨k % 48, Nat.mod_lt _ (by norm_num)⟩
    | ⟨2, _⟩ => ⟨0, Nat.one_pos⟩

/-- The contribution of the k-th entry, in row-major order, of pred and true. -/
def entryAt (x0 x1 : (⟨3, ![524288, 48, 1]⟩ : Shape).Idx → EReal) (sm : (⟨2, ![4, 4]⟩ : Shape).Idx → EReal)
    (k : ℕ) : EReal :=
  term sm (x0 (flatIdx k)) (x1 (flatIdx k))

/-- The sum of all 524288 · 48 contributions. -/
def lossSum (x0 x1 : (⟨3, ![524288, 48, 1]⟩ : Shape).Idx → EReal) (sm : (⟨2, ![4, 4]⟩ : Shape).Idx → EReal) : EReal :=
  ∑ k ∈ Finset.range (524288 * 48), entryAt x0 x1 sm k

/-- The loss: zero plus the sum of the contributions, divided by 524288. -/
def loss (x0 x1 : (⟨3, ![524288, 48, 1]⟩ : Shape).Idx → EReal) (sm : (⟨2, ![4, 4]⟩ : Shape).Idx → EReal) : EReal :=
  Ideal.div (Ideal.ofBits .f32 0x00000000#32 + lossSum x0 x1 sm) (Ideal.ofBits .f32 0x49000000#32)

end Cert.Gmgs

end
-- ==== Proof.LibPointGather.lean ====
/-
  A gather of single entries of a two-axis table: the operand is [N0, N1], the start indices are [R, C, 2] (the
  index vector on the last axis, its two components naming the operand's two axes), every slice is 1×1 and both
  operand axes are collapsed, so the result is [R, C] and its entry (r, c) is the table's entry at the pair
  idx[r, c, 0], idx[r, c, 1], each component read signed and clamped into its axis.
-/
import Idealize.ShloMosaic.Lib.ValueIdx

noncomputable section

namespace Idealize.ShloMosaic.PointGather

open Idealize.ShloMosaic Idealize.ShloMosaic.ValueIdx

variable {α : Type}

/-- The dimension numbers of such a gather; their conditions `wf` are decided on a program's literal shapes. -/
abbrev pointDims (N0 N1 R C : Nat)
    (wf : GatherDims.WF ⟨2, ![N0, N1]⟩ ⟨3, ![R, C, 2]⟩ ⟨2, ![R, C]⟩ [] [0, 1] [] [0, 1] [] 2 ![1, 1]) :
    GatherDims ⟨2, ![N0, N1]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- The start-indices index [r, c, k] of result index (r, c) and component k. -/
abbrev pointIdx {R C : Nat} (y : (⟨2, ![R, C]⟩ : Shape).Idx) (k : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => k

/-- THE GATHER READ AT (r, c): the table at the pair of start-index components, each read signed and clamped
    into its axis. -/
theorem gather_point_apply {N0 N1 R C w : Nat} (h0 : 0 < N0) (h1 : 0 < N1)
    (wf : GatherDims.WF ⟨2, ![N0, N1]⟩ ⟨3, ![R, C, 2]⟩ ⟨2, ![R, C]⟩ [] [0, 1] [] [0, 1] [] 2 ![1, 1])
    (x : (⟨2, ![N0, N1]⟩ : Shape).Idx → α) (idx : IVec ⟨3, ![R, C, 2]⟩ w) (y : (⟨2, ![R, C]⟩ : Shape).Idx) :
    Host.gather (pointDims N0 N1 R C wf) x idx y
      = x (ix2 ⟨min (idx (pointIdx y 0)).toInt.toNat (N0 - 1), by omega⟩
               ⟨min (idx (pointIdx y 1)).toInt.toNat (N1 - 1), by omega⟩) := by
  unfold Host.gather
  congr 1
  funext a
  refine Fin.ext ?_
  show (pointDims N0 N1 R C wf).start y idx a + (pointDims N0 N1 R C wf).batchCoord y a
    + (pointDims N0 N1 R C wf).offCoord y a = _
  have ha : a = 0 ∨ a = 1 := by
    match a with
    | ⟨0, _⟩ => exact Or.inl rfl
    | ⟨1, _⟩ => exact Or.inr rfl
  have hm0 : (0 : Fin 2) ∈ ([0, 1] : List (Fin 2)) := List.mem_cons_self
  have hm1 : (1 : Fin 2) ∈ ([0, 1] : List (Fin 2)) := List.mem_cons_of_mem _ List.mem_cons_self
  rcases ha with rfl | rfl
  · rw [GatherDims.batchCoord_eq_zero _ _ _ List.not_mem_nil,
      GatherDims.offCoord_eq_zero _ _ _ (fun h => ((GatherDims.mem_sKept _ _).mp h).1 hm0)]
    simp only [Nat.add_zero]
    unfold GatherDims.start
    rw [dif_pos (show (0 : Fin 2) ∈ (pointDims N0 N1 R C wf).startIndexMap from hm0)]
    have hsi : (pointDims N0 N1 R C wf).siIdx y ⟨List.idxOf (0 : Fin 2) (pointDims N0 N1 R C wf).startIndexMap,
        List.idxOf_lt_length_iff.2 hm0⟩ = pointIdx y 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil,
      GatherDims.offCoord_eq_zero _ _ _ (fun h => ((GatherDims.mem_sKept _ _).mp h).1 hm1)]
    simp only [Nat.add_zero]
    unfold GatherDims.start
    rw [dif_pos (show (1 : Fin 2) ∈ (pointDims N0 N1 R C wf).startIndexMap from hm1)]
    have hsi : (pointDims N0 N1 R C wf).siIdx y ⟨List.idxOf (1 : Fin 2) (pointDims N0 N1 R C wf).startIndexMap,
        List.idxOf_lt_length_iff.2 hm1⟩ = pointIdx y 1 := by
      funext b; refine Fin.ext ?_
      match b with
      | ⟨0, _⟩ => rfl
      | ⟨1, _⟩ => rfl
      | ⟨2, _⟩ => rfl
    rw [hsi]
    rfl

end Idealize.ShloMosaic.PointGather

end
-- ==== Proof.LibRangeTiles.lean ====
/-
  Two small tools for sums taken tile by tile.

  A sum over T consecutive tiles of width B is the sum over the first T · B natural numbers; it uses only that addition is
  commutative and associative, so it holds in the extended reals.  And a rank-2 array of extended reals extended by zero to
  all pairs of natural numbers, so that row and column arithmetic can be done on plain naturals.
-/
import Idealize.ShloMosaic.Lib.ValueIdx
import Idealize.ShloMosaic.PureOps.Ideal

noncomputable section

namespace BlockSparse

open Idealize.ShloMosaic Idealize.ShloMosaic.ValueIdx
open scoped BigOperators

/-- A sum over `T` consecutive tiles of width `B` is the sum over the first `T · B` naturals. -/
theorem sum_range_tiles {M : Type*} [AddCommMonoid M] (f : ℕ → M) (B : ℕ) :
    ∀ T : ℕ, ∑ s ∈ Finset.range T, ∑ k ∈ Finset.range B, f (s * B + k) = ∑ n ∈ Finset.range (T * B), f n
  | 0 => by simp
  | T + 1 => by
    rw [Finset.sum_range_succ, sum_range_tiles f B T, Nat.succ_mul, Finset.sum_range_add]

/-- A rank-2 array read at a pair of naturals: the entry when both are in range, zero otherwise. -/
def at2 {A B : ℕ} (f : (⟨2, ![A, B]⟩ : Shape).Idx → EReal) (a b : ℕ) : EReal :=
  if h : a < A ∧ b < B then f (ix2 ⟨a, h.1⟩ ⟨b, h.2⟩) else 0

/-- In range it is the entry. -/
theorem at2_of_lt {A B : ℕ} (f : (⟨2, ![A, B]⟩ : Shape).Idx → EReal) {a b : ℕ} (ha : a < A) (hb : b < B) :
    at2 f a b = f (ix2 ⟨a, ha⟩ ⟨b, hb⟩) := dif_pos ⟨ha, hb⟩

end BlockSparse

end
-- ==== Proof.Sums.lean ====
/-
  Re-indexing of the loss's sum.  Only commutativity and associativity of addition are used, so everything here
  holds in the extended reals with no finiteness assumption.
-/
import proofs.«134609_j32289564131835_1_alg».proof.Proof.LibRangeTiles

noncomputable section

namespace Cert.Gmgs

open scoped BigOperators

/-- A double sum over two finite coordinate types of a function of the coordinates' values is the double sum over
    the two ranges. -/
theorem sum_fin_fin {M : Type*} [AddCommMonoid M] (g : ℕ → ℕ → M) (A B : ℕ) :
    ∑ a : Fin A, ∑ b : Fin B, g a.val b.val = ∑ a ∈ Finset.range A, ∑ b ∈ Finset.range B, g a b := by
  rw [← Fin.sum_univ_eq_sum_range (fun a => ∑ b ∈ Finset.range B, g a b) A]
  refine Finset.sum_congr rfl fun a _ => ?_
  exact Fin.sum_univ_eq_sum_range (fun b => g a.val b) B

/-- Rows of width B: the double sum over (row, column) of a function of row · B + column is the sum over the
    first A · B naturals. -/
theorem sum_rows {M : Type*} [AddCommMonoid M] (f : ℕ → M) (A B : ℕ) :
    ∑ a : Fin A, ∑ b : Fin B, f (a.val * B + b.val) = ∑ n ∈ Finset.range (A * B), f n :=
  (sum_fin_fin (fun a b => f (a * B + b)) A B).trans (BlockSparse.sum_range_tiles f B A)

end Cert.Gmgs

end
-- ==== Proof.RefValue.lean ====
/-
  The reference program read at an index, down to the mathematics of Spec.lean.

  Entry (b, t) of the reference's product array is (pred[b,t,0] - true[b,t,0])² times the table sm read at
  (class of true, class of pred).  The reference reaches the table through a gather whose two start-index
  components are the classes after jnp's negative-index wrap (c < 0 ? c + 4 : c), which leaves a class unchanged,
  clamped into [0, 3], which a class already is.
-/
import proofs.«134609_j32289564131835_1_alg».proof.Proof.Gen.ReferenceIdeal.Read
import proofs.«134609_j32289564131835_1_alg».proof.Proof.Spec
import proofs.«134609_j32289564131835_1_alg».proof.Proof.LibPointGather
import proofs.«134609_j32289564131835_1_alg».proof.Proof.Sums

noncomputable section

namespace Cert.Gmgs.Ref

open Cert.ReferenceIdeal Cert.ReferenceIdeal.Gen Cert.ReferenceIdeal.Read Cert.Gmgs
open Idealize.ShloMosaic Idealize.ShloMosaic.ValueIdx Idealize.ShloMosaic.PointGather

/-! ## The classes as the reference computes them -/

/-- The reference's class of true at (b, t): the class of true[b, t, 0]. -/
theorem true_cls (x1 : (⟨S524288x48x1, .f32⟩ : BufTy).Contents (Elt Ideal)) (i : S524288x48.Idx) :
    val_main_v16 (F := Ideal) x1 i = cls (x1 (idx_main_v11 i)) := by
  rw [val_main_v16_apply, val_main_v15_apply, val_main_v13_apply, val_main_call1_v4_apply, val_main_call1_v3_apply,
    val_main_cst_4_apply, val_main_call1_v2_apply, val_main_call1_v1_apply, val_main_call1_v0_apply,
    val_main_cst_3_apply, val_main_v12_apply, val_main_v11_apply, val_main_v14_apply, val_main_cst_5_apply]
  rfl

/-- The reference's class of pred at (b, t): the class of pred[b, t, 0]. -/
theorem pred_cls (x0 : (⟨S524288x48x1, .f32⟩ : BufTy).Contents (Elt Ideal)) (i : S524288x48.Idx) :
    val_main_v10 (F := Ideal) x0 i = cls (x0 (idx_main_v5 i)) := by
  rw [val_main_v10_apply, val_main_v9_apply, val_main_v7_apply, val_main_call0_v4_apply, val_main_call0_v3_apply,
    val_main_cst_1_apply, val_main_call0_v2_apply, val_main_call0_v1_apply, val_main_call0_v0_apply,
    val_main_cst_0_apply, val_main_v6_apply, val_main_v5_apply, val_main_v8_apply, val_main_cst_2_apply]
  rfl

/-- jnp's wrap of a negative index, c < 0 ? c + 4 : c, leaves a class unchanged. -/
theorem wrap_class (c : BitVec 32) (h : c = 0#32 ∨ c = 1#32 ∨ c = 2#32 ∨ c = 3#32) :
    Scalar.select (IntOp.cmpi .slt c 0#32) (IntOp.addi c 4#32) c = c := by
  rcases h with rfl | rfl | rfl | rfl <;> rfl

/-- The wrapped class of true at (b, t) is the class. -/
theorem true_idx (x1 : (⟨S524288x48x1, .f32⟩ : BufTy).Contents (Elt Ideal)) (i : S524288x48.Idx) :
    val_main_v21 (F := Ideal) x1 i = cls (x1 (idx_main_v11 i)) := by
  rw [val_main_v21_apply, val_main_v18_apply, val_main_v20_apply, val_main_v17_apply, val_main_c_apply,
    val_main_v19_apply, val_main_c_6_apply, true_cls]
  exact wrap_class _ (cls_mem _)

/-- The wrapped class of pred at (b, t) is the class. -/
theorem pred_idx (x0 : (⟨S524288x48x1, .f32⟩ : BufTy).Contents (Elt Ideal)) (i : S524288x48.Idx) :
    val_main_v26 (F := Ideal) x0 i = cls (x0 (idx_main_v5 i)) := by
  rw [val_main_v26_apply, val_main_v23_apply, val_main_v25_apply, val_main_v22_apply, val_main_c_7_apply,
    val_main_v24_apply, val_main_c_8_apply, pred_cls]
  exact wrap_class _ (cls_mem _)

/-! ## The start indices: the two classes side by side -/

/-- The index (b, t, 0) of a [524288, 48, 1] array. -/
abbrev col (y : S524288x48.Idx) : S524288x48x1.Idx :=
  fun a => match a with | ⟨0, _⟩ => ⟨(y 0).val, (y 0).isLt⟩ | ⟨1, _⟩ => ⟨(y 1).val, (y 1).isLt⟩ | ⟨2, _⟩ => ⟨0, Nat.one_pos⟩

theorem idx_v27_col (y : S524288x48.Idx) : idx_main_v27 (col y) = y := by
  funext a; refine Fin.ext ?_
  match a with
  | ⟨0, _⟩ => rfl
  | ⟨1, _⟩ => rfl

theorem idx_v28_col (y : S524288x48.Idx) : idx_main_v28 (col y) = y := by
  funext a; refine Fin.ext ?_
  match a with
  | ⟨0, _⟩ => rfl
  | ⟨1, _⟩ => rfl

/-- Component 0 of the start index at (b, t) is the class of true there. -/
theorem start0 (x0 x1 : (⟨S524288x48x1, .f32⟩ : BufTy).Contents (Elt Ideal)) (y : S524288x48.Idx) :
    val_main_v29 (F := Ideal) x0 x1 (pointIdx y 0) = cls (x1 (idx_main_v11 y)) := by
  unfold val_main_v29
  rw [concatenate_pair_apply_left (t := S524288x48x2) (s₁ := S524288x48x1) (s₂ := S524288x48x1) (2 : Fin 3)
    (val_main_v27 (F := Ideal) x1) (val_main_v28 (F := Ideal) x0) Facts₀.concatenates_S524288x48x1_S524288x48x1_S524288x48x2_d2 (pointIdx y 0) rfl (col y)
    (fun b => match b with | ⟨0, _⟩ => rfl | ⟨1, _⟩ => rfl | ⟨2, _⟩ => rfl)]
  rw [val_main_v27_apply, idx_v27_col, true_idx]

/-- Component 1 of the start index at (b, t) is the class of pred there. -/
theorem start1 (x0 x1 : (⟨S524288x48x1, .f32⟩ : BufTy).Contents (Elt Ideal)) (y : S524288x48.Idx) :
    val_main_v29 (F := Ideal) x0 x1 (pointIdx y 1) = cls (x0 (idx_main_v5 y)) := by
  unfold val_main_v29
  rw [concatenate_pair_apply_right (t := S524288x48x2) (s₁ := S524288x48x1) (s₂ := S524288x48x1) (2 : Fin 3)
    (val_main_v27 (F := Ideal) x1) (val_main_v28 (F := Ideal) x0) Facts₀.concatenates_S524288x48x1_S524288x48x1_S524288x48x2_d2 (pointIdx y 1) rfl rfl (col y)
    (fun b hb => match b, hb with
      | ⟨0, _⟩, _ => rfl
      | ⟨1, _⟩, _ => rfl
      | ⟨2, _⟩, hb => absurd rfl hb)
    rfl]
  rw [val_main_v28_apply, idx_v28_col, pred_idx]

/-! ## The table entry the reference gathers -/

/-- The gathered weight at (b, t): the sixteen selections' value at the two classes. -/
theorem weight (x0 x1 : (⟨S524288x48x1, .f32⟩ : BufTy).Contents (Elt Ideal))
    (x2 : (⟨S4x4, .f32⟩ : BufTy).Contents (Elt Ideal)) (y : S524288x48.Idx) :
    val_main_v30 (F := Ideal) x0 x1 x2 y
      = wsel (val_main_v4 (F := Ideal) x2) (cls (x1 (idx_main_v11 y))) (cls (x0 (idx_main_v5 y))) := by
  unfold val_main_v30
  have hd : gather_S4x4_S524288x48x2_S524288x48_n_01_n_n_01_2_11
      = pointDims 4 4 524288 48 Facts₀.gather_S4x4_S524288x48x2_S524288x48_n_01_n_n_01_2_11_wf := rfl
  rw [hd, gather_point_apply (by norm_num) (by norm_num), wsel_eq _ _ _ (cls_mem _) (cls_mem _)]
  simp only [start0, start1]
  rfl

/-! ## The product array and the loss -/

/-- The reference's row-major index of (b, t) is entry b · 48 + t. -/
theorem idx5_flat (y : S524288x48.Idx) : idx_main_v5 y = flatIdx ((y 0).val * 48 + (y 1).val) := by
  funext a; refine Fin.ext ?_
  have h0 : (y 0).val < 524288 := (y 0).isLt
  have h1 : (y 1).val < 48 := (y 1).isLt
  match a with
  | ⟨0, _⟩ => show ((y 0).val * 48 + (y 1).val) / 48 = ((y 0).val * 48 + (y 1).val) / 48 % 524288; omega
  | ⟨1, _⟩ => show ((y 0).val * 48 + (y 1).val) / 1 % 48 = ((y 0).val * 48 + (y 1).val) % 48; omega
  | ⟨2, _⟩ => rfl

/-- Entry (b, t) of the reference's product array is the contribution of entry b · 48 + t. -/
theorem entry (x0 x1 : (⟨S524288x48x1, .f32⟩ : BufTy).Contents (Elt Ideal))
    (x2 : (⟨S4x4, .f32⟩ : BufTy).Contents (Elt Ideal)) (y : S524288x48.Idx) :
    val_main_v34 (F := Ideal) x0 x1 x2 y
      = entryAt x0 x1 (val_main_v4 (F := Ideal) x2) ((y 0).val * 48 + (y 1).val) := by
  rw [val_main_v34_apply, val_main_v33_apply, val_main_v32_apply, val_main_v31_apply, weight]
  unfold entryAt term
  rw [← idx5_flat y]
  rfl

/-- The reference's result: the loss of the argument arrays, with the table sm the reference computes. -/
theorem total (x0 x1 : (⟨S524288x48x1, .f32⟩ : BufTy).Contents (Elt Ideal))
    (x2 : (⟨S4x4, .f32⟩ : BufTy).Contents (Elt Ideal)) (i : S_.Idx) :
    val_main_v36 (F := Ideal) x0 x1 x2 i = loss x0 x1 (val_main_v4 (F := Ideal) x2) := by
  have hs : ∑ j : S524288x48.Idx, val_main_v34 (F := Ideal) x0 x1 x2 j
      = lossSum x0 x1 (val_main_v4 (F := Ideal) x2) := by
    simp only [entry]
    rw [sum_idx2]
    exact sum_rows (entryAt x0 x1 (val_main_v4 (F := Ideal) x2)) 524288 48
  rw [val_main_v36_apply, val_main_v35_apply, hs, val_main_cst_9_apply, val_main_cst_10_apply]
  rfl

end Cert.Gmgs.Ref

end
-- ==== Proof.KStepDef.lean ====
/-
  One grid point's update of the accumulator, as one pure function of the point's three input blocks.

  The accumulator is a [1,128] row, one entry per lane.  A point holds a [8192,128] block of pred, the same block of
  true and the whole 4×4 table; it forms (pred - true)² times the table entry selected by the two classes at each of
  the 8192 × 128 positions, sums the 8192 rows lane by lane, and adds the result to the accumulator.
-/
import proofs.«134609_j32289564131835_1_alg».proof.Proof.Gen.KernelIdeal.Skeleton

noncomputable section

open Idealize.ShloMosaic Idealize.SL.Sem

namespace Cert.KernelIdeal.Pieces

open Cert.KernelIdeal Cert.KernelIdeal.Gen

variable {F : FTy → Type} [FloatOps F]

/-- One point's update of the [1,128] accumulator xs: the blocks' contributions summed over the 8192 rows of the
    block, lane by lane, added to xs. -/
def step (x0 x1 : Vec F S8192x128 .f32) (x2 : Vec F S4x4 .f32) (xs : Vec F S1x128 .f32) : FVec F S1x128 .f32 :=
  k0_pay16 (k0_pay3 x0) (k0_pay4 x1) (k0_pay5 x2) (k0_pay6 x0) (k0_pay7 x1)
    (k0_pay14 (k0_pay5 x2) (k0_pay6 x0) (k0_pay7 x1)
      (k0_pay11 (k0_pay5 x2) (k0_pay6 x0) (k0_pay7 x1) (k0_pay8 x0 x1 x2) (k0_pay9 x1) k0_pay10)
      (k0_pay12 (k0_pay6 x0) (k0_pay7 x1)) (k0_pay13 (k0_pay5 x2)))
    (k0_pay15 (k0_pay7 x1)) (0#32) xs

/-- The zero accumulator the first inner point stores. -/
abbrev zeroAcc : FVec F S1x128 .f32 := k0_pay2

end Cert.KernelIdeal.Pieces

end
-- ==== Proof.KPieces.lean ====
/-
  What each of the three kinds of grid point leaves behind, read off the body's stores.

  The grid is 2 × 12: for each half p the twelve inner points r = 0 … 11 run in order over one accumulator.
  The first inner point zeroes the accumulator and takes one step; a middle point takes one step; the last inner
  point takes one step and copies the accumulator, as a [1,1,128] block, into block p of the output.  A store of a
  whole buffer followed by a load of it reads back what was stored.
-/
import proofs.«134609_j32289564131835_1_alg».proof.Proof.Gen.KernelIdeal.Frame
import proofs.«134609_j32289564131835_1_alg».proof.Proof.KStepDef
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- An inner point that is neither first nor last leaves the accumulator one step further. -/
theorem sout_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S4x4 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : ¬cond0_1 i)
    (x0 : Vec F S8192x128 .f32) (x1 : Vec F S8192x128 .f32) (x2 : Vec F S4x4 .f32) (xs : Vec F S1x128 .f32) :
    sout0_B_0 c i arg2 harg2 arg3 harg3 arg4 harg4 arg5 harg5 arg6 harg6 hc0 hc1 x0 x1 x2 xs = step x0 x1 x2 xs := by
  unfold sout0_B_0
  rw [View.read_writes_eq_canon _ _ _ (scover0_B_0 c i arg2 harg2 arg3 harg3 arg4 harg4 arg5 harg5 arg6 harg6 hc0 hc1 x0 x1 x2 xs)]
  unfold kernelRun0_B
  dsimp only
  sl_unfold_words
  rw [View.canon_unit_zero hz]
  simp only [View.readAt_eq_ld, harg2.read_unread, harg3.read_unread, harg4.read_unread, harg6.read_unread,
    View.ld_unit_zero (S := S8192x128) hz, View.ld_unit_zero (S := S4x4) hz, View.ld_unit_zero (S := S1x128) hz]
  rfl

/-- The last inner point leaves the accumulator one step further -/
theorem sout_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S4x4 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 : Vec F S8192x128 .f32) (x1 : Vec F S8192x128 .f32) (x2 : Vec F S4x4 .f32) (xs : Vec F S1x128 .f32) :
    sout0_C_0 c i arg2 harg2 arg3 harg3 arg4 harg4 arg5 harg5 arg6 harg6 hc0 hc1 x0 x1 x2 xs = step x0 x1 x2 xs := by
  unfold sout0_C_0
  rw [View.read_writes_eq_canon _ _ _ (scover0_C_0 c i arg2 harg2 arg3 harg3 arg4 harg4 arg5 harg5 arg6 harg6 hc0 hc1 x0 x1 x2 xs)]
  unfold kernelRun0_C
  dsimp only
  sl_unfold_words
  rw [View.canon_unit_zero hz]
  simp only [View.readAt_eq_ld, harg2.read_unread, harg3.read_unread, harg4.read_unread, harg6.read_unread,
    View.ld_unit_zero (S := S8192x128) hz, View.ld_unit_zero (S := S4x4) hz, View.ld_unit_zero (S := S1x128) hz]
  rfl

/-- and copies it, as a [1,1,128] block, into the output's block. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S4x4 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 : Vec F S8192x128 .f32) (x1 : Vec F S8192x128 .f32) (x2 : Vec F S4x4 .f32) (xs : Vec F S1x128 .f32) :
    out0_C_3 c i arg2 harg2 arg3 harg3 arg4 harg4 arg5 harg5 arg6 harg6 hc0 hc1 x0 x1 x2 xs = k0_pay1 (step x0 x1 x2 xs) := by
  unfold out0_C_3
  rw [View.read_writes_eq_canon _ _ _ (cover0_C_3 c i arg2 harg2 arg3 harg3 arg4 harg4 arg5 harg5 arg6 harg6 hc0 hc1 x0 x1 x2 xs)]
  unfold kernelRun0_C
  dsimp only
  sl_unfold_words
  rw [View.canon_unit_zero hz3, View.readCov_unit_zero (S := S1x128) _ hz]
  simp only [View.readAt_eq_ld, harg2.read_unread, harg3.read_unread, harg4.read_unread, harg6.read_unread,
    View.ld_unit_zero (S := S8192x128) hz, View.ld_unit_zero (S := S4x4) hz, View.ld_unit_zero (S := S1x128) hz]
  rfl

/-- The first inner point zeroes the accumulator and then takes one step. -/
theorem sout_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S4x4 .f32) (harg4 : arg4.IsWhole) (arg5 : Memref sig .tc .vmem S1x1x128 .f32) (harg5 : arg5.IsWhole) (arg6 : Memref sig .tc .vmem S1x128 .f32) (harg6 : arg6.IsWhole) (hc0 : cond0_0 i) (hc1 : ¬cond0_1 i)
    (x0 : Vec F S8192x128 .f32) (x1 : Vec F S8192x128 .f32) (x2 : Vec F S4x4 .f32) :
    sout0_A_0 c i arg2 harg2 arg3 harg3 arg4 harg4 arg5 harg5 arg6 harg6 hc0 hc1 x0 x1 x2 = step x0 x1 x2 zeroAcc := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x128) hz, View.readCov_unit_zero (S := S1x128) _ hz]
  simp only [View.readAt_eq_ld, harg2.read_unread, harg3.read_unread, harg4.read_unread, harg6.read_unread,
    View.ld_unit_zero (S := S8192x128) hz, View.ld_unit_zero (S := S4x4) hz, View.ld_unit_zero (S := S1x128) hz]
  rfl

end Cert.KernelIdeal.Pieces

end
-- ==== Proof.KAccum.lean ====
/-
  The accumulator across the grid.

  The 24 grid points are numbered n = 12·p + r.  After point n the accumulator holds: one step from zero when
  r = 0, one step from what point n - 1 left otherwise.  At r = 11 the output's block p receives a copy of it.
  Both facts follow the grid by induction on n, never by listing the points.
-/
import proofs.«134609_j32289564131835_1_alg».proof.Proof.KPieces

noncomputable section

open Idealize.ShloMosaic Idealize.ShloMosaic.TcCoe Idealize.SL.Sem

namespace Cert.KernelIdeal.Pieces

open Cert.KernelIdeal Cert.KernelIdeal.Gen

variable {F : FTy → Type} [FloatOps F]
variable (m : (ℓ : Loc nD τ sig) → Buf (Elt F) ℓ)

/-- The accumulator after grid point n: one step over the point's blocks, from zero at the first point of a half,
    from the previous point's accumulator otherwise. -/
def acc (c : Dev nD) : (n : ℕ) → n < cfg0.N → Vec F S1x128 .f32
  | 0, h => step (iblk m c 0 ⟨0, h⟩) (iblk m c 1 ⟨0, h⟩) (iblk m c 2 ⟨0, h⟩) zeroAcc
  | n + 1, h => step (iblk m c 0 ⟨n + 1, h⟩) (iblk m c 1 ⟨n + 1, h⟩) (iblk m c 2 ⟨n + 1, h⟩)
      (if (n + 1) % 12 = 0 then zeroAcc else acc c n (Nat.lt_of_succ_lt h))

/-- What the run leaves in the accumulator after point n is `acc`. -/
theorem outsAt_acc (c : Dev nD) : ∀ (n : ℕ) (h : n < cfg0.N), (outsAt0 m c n h).2 = acc m c n h
  | 0, h => by
    rw [outsAt0_A m c ⟨0, h⟩ (Nat.zero_mod _) (by show ¬0 % 12 = 11; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : cfg0.N = 24 := N_0
    by_cases h0 : (n + 1) % 12 = 0
    · have h1 : ¬(n + 1) % 12 = 11 := by omega
      rw [outsAt0_A m c ⟨n + 1, h⟩ h0 h1]
      dsimp only
      refine (sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)).trans ?_
      show step _ _ _ zeroAcc = step _ _ _ (if (n + 1) % 12 = 0 then zeroAcc else acc m c n _)
      rw [if_pos h0]
    · by_cases h1 : (n + 1) % 12 = 11
      · rw [outsAt0_C m c ⟨n + 1, h⟩ h0 h1]
        refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _).trans ?_
        show step _ _ _ (outsAt0 m c n _).2 = step _ _ _ (if (n + 1) % 12 = 0 then zeroAcc else acc m c n _)
        rw [if_neg h0, outsAt_acc c n]
      · rw [outsAt0_B m c ⟨n + 1, h⟩ h0 h1]
        refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _).trans ?_
        show step _ _ _ (outsAt0 m c n _).2 = step _ _ _ (if (n + 1) % 12 = 0 then zeroAcc else acc m c n _)
        rw [if_neg h0, outsAt_acc c n]

/-- At the last inner point of a half the output's staging block receives the accumulator, as a [1,1,128] block. -/
theorem outsAt_out (c : Dev nD) (t : Fin cfg0.N) (h1 : t.val % 12 = 11) :
    (outsAt0 m c t.val t.isLt).1 = k0_pay1 (acc m c t.val t.isLt) := by
  have h0 : ¬t.val % 12 = 0 := by omega
  have e := outsAt_acc m c t.val t.isLt
  rw [outsAt0_C m c t h0 h1] at e ⊢
  dsimp only at e ⊢
  refine (out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans ?_
  refine congrArg k0_pay1 ?_
  exact (sout_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm.trans e

end Cert.KernelIdeal.Pieces

end
-- ==== Proof.KStep.lean ====
/-
  One point's update of the accumulator, read at a lane, over the extended reals.

  At lane l the updated accumulator is the old entry plus the sum, over the 8192 rows of the point's block, of
  (pred - true)² times the table entry selected by the classes of true and pred at that row and lane: the body's
  sixteen nested selections are Spec's, one selection per table entry, and its clipping is Spec's class.
-/
import proofs.«134609_j32289564131835_1_alg».proof.Proof.KStepDef
import proofs.«134609_j32289564131835_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.SL.Sem Idealize.ShloMosaic.ValueIdx

namespace Cert.KernelIdeal.Pieces

open Cert.KernelIdeal Cert.KernelIdeal.Gen Cert.Gmgs

/-! ## The table's entries as the body spells them -/

/-- The 1×1 slice of the table at offsets (i, j), read at its one position, is the table's entry (i, j). -/
theorem slot (v8 : FVec Ideal S4x4 .f32) (off : Fin 2 → ℕ) (h : S4x4.Slices off S1x1)
    (h' : ∀ a, (![0, 0] : Fin 2 → ℕ) a < S1x1.size a) (i j : Fin 4) (hi : off 0 = i.val) (hj : off 1 = j.val) :
    extractAt ![0, 0] (extractStridedSlice S1x1 off v8 h) h' = v8 (ix2 i j) := by
  unfold extractAt extractStridedSlice
  congr 1
  funext a; refine Fin.ext ?_
  match a with
  | ⟨0, _⟩ => show off 0 + 0 = i.val; omega
  | ⟨1, _⟩ => show off 1 + 0 = j.val; omega

theorem slot_00 (v8 : FVec Ideal S4x4 .f32) (h : S4x4.Slices ![0, 0] S1x1)
    (h' : ∀ a, (![0, 0] : Fin 2 → ℕ) a < S1x1.size a) :
    extractAt ![0, 0] (extractStridedSlice S1x1 ![0, 0] v8 h) h' = v8 (ix2 0 0) := slot v8 _ h h' 0 0 rfl rfl
theorem slot_01 (v8 : FVec Ideal S4x4 .f32) (h : S4x4.Slices ![0, 1] S1x1)
    (h' : ∀ a, (![0, 0] : Fin 2 → ℕ) a < S1x1.size a) :
    extractAt ![0, 0] (extractStridedSlice S1x1 ![0, 1] v8 h) h' = v8 (ix2 0 1) := slot v8 _ h h' 0 1 rfl rfl
theorem slot_02 (v8 : FVec Ideal S4x4 .f32) (h : S4x4.Slices ![0, 2] S1x1)
    (h' : ∀ a, (![0, 0] : Fin 2 → ℕ) a < S1x1.size a) :
    extractAt ![0, 0] (extractStridedSlice S1x1 ![0, 2] v8 h) h' = v8 (ix2 0 2) := slot v8 _ h h' 0 2 rfl rfl
theorem slot_03 (v8 : FVec Ideal S4x4 .f32) (h : S4x4.Slices ![0, 3] S1x1)
    (h' : ∀ a, (![0, 0] : Fin 2 → ℕ) a < S1x1.size a) :
    extractAt ![0, 0] (extractStridedSlice S1x1 ![0, 3] v8 h) h' = v8 (ix2 0 3) := slot v8 _ h h' 0 3 rfl rfl
theorem slot_10 (v8 : FVec Ideal S4x4 .f32) (h : S4x4.Slices ![1, 0] S1x1)
    (h' : ∀ a, (![0, 0] : Fin 2 → ℕ) a < S1x1.size a) :
    extractAt ![0, 0] (extractStridedSlice S1x1 ![1, 0] v8 h) h' = v8 (ix2 1 0) := slot v8 _ h h' 1 0 rfl rfl
theorem slot_11 (v8 : FVec Ideal S4x4 .f32) (h : S4x4.Slices ![1, 1] S1x1)
    (h' : ∀ a, (![0, 0] : Fin 2 → ℕ) a < S1x1.size a) :
    extractAt ![0, 0] (extractStridedSlice S1x1 ![1, 1] v8 h) h' = v8 (ix2 1 1) := slot v8 _ h h' 1 1 rfl rfl
theorem slot_12 (v8 : FVec Ideal S4x4 .f32) (h : S4x4.Slices ![1, 2] S1x1)
    (h' : ∀ a, (![0, 0] : Fin 2 → ℕ) a < S1x1.size a) :
    extractAt ![0, 0] (extractStridedSlice S1x1 ![1, 2] v8 h) h' = v8 (ix2 1 2) := slot v8 _ h h' 1 2 rfl rfl
theorem slot_13 (v8 : FVec Ideal S4x4 .f32) (h : S4x4.Slices ![1, 3] S1x1)
    (h' : ∀ a, (![0, 0] : Fin 2 → ℕ) a < S1x1.size a) :
    extractAt ![0, 0] (extractStridedSlice S1x1 ![1, 3] v8 h) h' = v8 (ix2 1 3) := slot v8 _ h h' 1 3 rfl rfl
theorem slot_20 (v8 : FVec Ideal S4x4 .f32) (h : S4x4.Slices ![2, 0] S1x1)
    (h' : ∀ a, (![0, 0] : Fin 2 → ℕ) a < S1x1.size a) :
    extractAt ![0, 0] (extractStridedSlice S1x1 ![2, 0] v8 h) h' = v8 (ix2 2 0) := slot v8 _ h h' 2 0 rfl rfl
theorem slot_21 (v8 : FVec Ideal S4x4 .f32) (h : S4x4.Slices ![2, 1] S1x1)
    (h' : ∀ a, (![0, 0] : Fin 2 → ℕ) a < S1x1.size a) :
    extractAt ![0, 0] (extractStridedSlice S1x1 ![2, 1] v8 h) h' = v8 (ix2 2 1) := slot v8 _ h h' 2 1 rfl rfl
theorem slot_22 (v8 : FVec Ideal S4x4 .f32) (h : S4x4.Slices ![2, 2] S1x1)
    (h' : ∀ a, (![0, 0] : Fin 2 → ℕ) a < S1x1.size a) :
    extractAt ![0, 0] (extractStridedSlice S1x1 ![2, 2] v8 h) h' = v8 (ix2 2 2) := slot v8 _ h h' 2 2 rfl rfl
theorem slot_23 (v8 : FVec Ideal S4x4 .f32) (h : S4x4.Slices ![2, 3] S1x1)
    (h' : ∀ a, (![0, 0] : Fin 2 → ℕ) a < S1x1.size a) :
    extractAt ![0, 0] (extractStridedSlice S1x1 ![2, 3] v8 h) h' = v8 (ix2 2 3) := slot v8 _ h h' 2 3 rfl rfl
theorem slot_30 (v8 : FVec Ideal S4x4 .f32) (h : S4x4.Slices ![3, 0] S1x1)
    (h' : ∀ a, (![0, 0] : Fin 2 → ℕ) a < S1x1.size a) :
    extractAt ![0, 0] (extractStridedSlice S1x1 ![3, 0] v8 h) h' = v8 (ix2 3 0) := slot v8 _ h h' 3 0 rfl rfl
theorem slot_31 (v8 : FVec Ideal S4x4 .f32) (h : S4x4.Slices ![3, 1] S1x1)
    (h' : ∀ a, (![0, 0] : Fin 2 → ℕ) a < S1x1.size a) :
    extractAt ![0, 0] (extractStridedSlice S1x1 ![3, 1] v8 h) h' = v8 (ix2 3 1) := slot v8 _ h h' 3 1 rfl rfl
theorem slot_32 (v8 : FVec Ideal S4x4 .f32) (h : S4x4.Slices ![3, 2] S1x1)
    (h' : ∀ a, (![0, 0] : Fin 2 → ℕ) a < S1x1.size a) :
    extractAt ![0, 0] (extractStridedSlice S1x1 ![3, 2] v8 h) h' = v8 (ix2 3 2) := slot v8 _ h h' 3 2 rfl rfl
theorem slot_33 (v8 : FVec Ideal S4x4 .f32) (h : S4x4.Slices ![3, 3] S1x1)
    (h' : ∀ a, (![0, 0] : Fin 2 → ℕ) a < S1x1.size a) :
    extractAt ![0, 0] (extractStridedSlice S1x1 ![3, 3] v8 h) h' = v8 (ix2 3 3) := slot v8 _ h h' 3 3 rfl rfl

/-! ## The classes as the body computes them -/

/-- The body's class of pred at a position of the block is Spec's class of the entry there. -/
theorem pay6_eq (x0 : Vec Ideal S8192x128 .f32) : k0_pay6 x0 = fun j => cls (x0 j) := by
  unfold k0_pay6 k0_pay3
  rw [shapeCast_self]
  rfl

/-- The body's class of true at a position of the block is Spec's class of the entry there. -/
theorem pay7_eq (x1 : Vec Ideal S8192x128 .f32) : k0_pay7 x1 = fun j => cls (x1 j) := by
  unfold k0_pay7 k0_pay4
  rw [shapeCast_self]
  rfl

/-! ## The row sum added to the accumulator -/

/-- Adding to the accumulator the sum over the rows of a [8192,128] array w, read at lane l: the old entry plus
    the sum of column l of w. -/
theorem acc_apply (xs : FVec Ideal S1x128 .f32) (w : FVec Ideal S8192x128 .f32) (u : Fin 1) (l : Fin 128) :
    shapeCast S1x128 (addf xs (shapeCast S1x128
        (multiReduction .add [0] S128 w 0x00000000#32 reduces_S8192x128_S128 (.inl rfl) rfl) shapeCasts_S128_S1x128))
      shapeCasts_S1x128_S1x128 (ix2 u l)
    = xs (ix2 u l) + ∑ k : Fin 8192, w (ix2 k l) := by
  rw [shapeCast_self, addf_apply, shapeCast_a_1a_apply]
  congr 1
  refine (Ideal.multiReduction_add_single w 0x00000000#32 reduces_S8192x128_S128 (.inl rfl) rfl (ix1 l)).trans ?_
  refine Finset.sum_congr rfl fun k _ => ?_
  congr 1
  funext a; refine Fin.ext ?_
  match a with
  | ⟨0, _⟩ => rfl
  | ⟨1, _⟩ => rfl

/-- THE STEP AT A LANE: the old entry plus the sum over the block's rows of the entries' contributions. -/
theorem step_apply (x0 x1 : Vec Ideal S8192x128 .f32) (x2 : Vec Ideal S4x4 .f32) (xs : Vec Ideal S1x128 .f32)
    (u : Fin 1) (l : Fin 128) :
    step x0 x1 x2 xs (ix2 u l) = xs (ix2 u l) + ∑ k : Fin 8192, term x2 (x0 (ix2 k l)) (x1 (ix2 k l)) := by
  unfold step k0_pay16
  refine (acc_apply xs _ u l).trans ?_
  congr 1
  refine Finset.sum_congr rfl fun k _ => ?_
  generalize ix2 k l = q
  simp only [pay6_eq, pay7_eq, k0_pay3, k0_pay4, k0_pay5, k0_pay8, k0_pay9, k0_pay10, k0_pay11, k0_pay12, k0_pay13,
    k0_pay14, k0_pay15, shapeCast_self, slot_00, slot_01, slot_02, slot_03, slot_10, slot_11, slot_12, slot_13, slot_20, slot_21, slot_22, slot_23, slot_30, slot_31, slot_32, slot_33]
  rfl

end Cert.KernelIdeal.Pieces

end
-- ==== Proof.KArrays.lean ====
/-
  The arrays the grid points read, in terms of the program's arguments.

  Before the region the host computes the table sm = exp(-S) / Σ exp(-S) and lays pred and true out as
  196608 × 128 arrays: entry (R, l) is entry R · 128 + l of the argument in row-major order.  Grid point t reads
  rows t · 8192 … t · 8192 + 8191 of both arrays and the whole table.
-/
import proofs.«134609_j32289564131835_1_alg».proof.Proof.Gen.KernelIdeal.Frame
import proofs.«134609_j32289564131835_1_alg».proof.Proof.Spec
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Arrays

open Cert.KernelIdeal Cert.KernelIdeal.Gen Cert.Gmgs

variable {F : FTy → Type} [FloatOps F]
variable (m : (ℓ : Loc nD τ sig) → Buf (Elt F) ℓ)

/-! ## What the host prepares -/

/-- The table: exp(-S) divided by the sum of all sixteen exp(-S). -/
def tableOf (x2 : (⟨S4x4, .f32⟩ : BufTy).Contents (Elt F)) : (⟨S4x4, .f32⟩ : BufTy).Contents (Elt F) :=
  Host.divf (Host.exp (Host.negf x2)) (broadcastInDim S4x4 ![] bcast_S_S4x4
    (Host.reduceAdd (Host.exp (Host.negf x2)) (constant S_ .f32 0x00000000#32) reducesTo_S4x4_S_d0_1 h_S_))

/-- An argument laid out as 196608 × 128. -/
def lanes (x : (⟨S524288x48x1, .f32⟩ : BufTy).Contents (Elt F)) : (⟨S196608x128, .f32⟩ : BufTy).Contents (Elt F) :=
  shapeCast S196608x128 (shapeCast S524288x48 x shapeCasts_S524288x48x1_S524288x48) shapeCasts_S524288x48_S196608x128

/-- The region finds the table of the third argument, -/
theorem V_v4 (c : Dev nD) : V m c main_v4 = tableOf (m ((c : Thread nD τ).loc main_arg2)) := by
  show StableHlo.after hostOps0 (fun b => m (c, b)) (Proc.devRef .tc main_v4) = _
  after_results
  rfl

/-- pred laid out as 196608 × 128, -/
theorem V_v6 (c : Dev nD) : V m c main_v6 = lanes (m ((c : Thread nD τ).loc main_arg0)) := by
  show StableHlo.after hostOps0 (fun b => m (c, b)) (Proc.devRef .tc main_v6) = _
  after_results
  rfl

/-- and true laid out the same way. -/
theorem V_v8 (c : Dev nD) : V m c main_v8 = lanes (m ((c : Thread nD τ).loc main_arg1)) := by
  show StableHlo.after hostOps0 (fun b => m (c, b)) (Proc.devRef .tc main_v8) = _
  after_results
  rfl

/-- Entry (R, l) of the 196608 × 128 layout is entry R · 128 + l of the argument in row-major order. -/
theorem lanes_at (x : (⟨S524288x48x1, .f32⟩ : BufTy).Contents (Elt F)) (R : Fin 196608) (l : Fin 128) :
    lanes x (ix2 R l) = x (flatIdx (R.val * 128 + l.val)) := by
  have hR := R.isLt
  have hl := l.isLt
  unfold lanes
  refine (shapeCast_apply _ shapeCasts_S524288x48_S196608x128 (ix2 R l)
    (ix2 ⟨(R.val * 128 + l.val) / 48, by omega⟩ ⟨(R.val * 128 + l.val) % 48, Nat.mod_lt _ (by norm_num)⟩) ?_).trans ?_
  · rw [Shape.rowMajor_val_two, Shape.rowMajor_val_two]
    show (R.val * 128 + l.val) / 48 * 48 + (R.val * 128 + l.val) % 48 = R.val * 128 + l.val
    omega
  · refine shapeCast_apply x shapeCasts_S524288x48x1_S524288x48 _ (flatIdx (R.val * 128 + l.val)) ?_
    rw [Shape.rowMajor_val_three, Shape.rowMajor_val_two]
    show ((R.val * 128 + l.val) / 48 % 524288 * 48 + (R.val * 128 + l.val) % 48) * 1 + 0
      = (R.val * 128 + l.val) / 48 * 48 + (R.val * 128 + l.val) % 48
    omega

/-! ## The blocks a grid point reads -/

/-- The windows' block indices at grid point t = 12 · p + r: row block t of pred and of true, the whole table,
    output block p. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 12 ∧ win0_3.index t (1 : Fin 3) = 0 ∧ win0_3.index t (2 : Fin 3) = 0 :=
  (by decide +kernel : ∀ t : Fin grid0.N, _)

theorem row_lt (t : Fin cfg0.N) (k : Fin 8192) : t.val * 8192 + k.val < 196608 := by
  have ht := t.isLt
  have hN : cfg0.N = 24 := N_0
  have hk := k.isLt
  omega

/-- Row k, lane l of point t's block of pred is row t · 8192 + k of the laid-out array. -/
theorem blk0_at (c : Dev nD) (t : Fin cfg0.N) (k : Fin 8192) (l : Fin 128) :
    iblk m c 0 t (ix2 k l) = V m c main_v6 (ix2 ⟨t.val * 8192 + k.val, row_lt t k⟩ l) := by
  obtain ⟨e0, e1, -⟩ := idx_facts t
  show V m c main_v6 (((cfg0.win 0).blk t).view.emb (ix2 k l)) = _
  congr 1
  funext a; apply Fin.ext
  match a with
  | ⟨0, _⟩ => show win0_0.index t (0 : Fin 2) * 8192 + 1 * k.val = t.val * 8192 + k.val; rw [e0]; omega
  | ⟨1, _⟩ => show win0_0.index t (1 : Fin 2) * 128 + 1 * l.val = l.val; rw [e1]; omega

/-- The same for true. -/
theorem blk1_at (c : Dev nD) (t : Fin cfg0.N) (k : Fin 8192) (l : Fin 128) :
    iblk m c 1 t (ix2 k l) = V m c main_v8 (ix2 ⟨t.val * 8192 + k.val, row_lt t k⟩ l) := by
  obtain ⟨-, -, e2, e3, -⟩ := idx_facts t
  show V m c main_v8 (((cfg0.win 1).blk t).view.emb (ix2 k l)) = _
  congr 1
  funext a; apply Fin.ext
  match a with
  | ⟨0, _⟩ => show win0_1.index t (0 : Fin 2) * 8192 + 1 * k.val = t.val * 8192 + k.val; rw [e2]; omega
  | ⟨1, _⟩ => show win0_1.index t (1 : Fin 2) * 128 + 1 * l.val = l.val; rw [e3]; omega

/-- Every point's block of the table is the whole table. -/
theorem blk2_eq (c : Dev nD) (t : Fin cfg0.N) : (iblk m c 2 t : Vec F S4x4 .f32) = V m c main_v4 := by
  obtain ⟨-, -, -, -, e4, e5, -⟩ := idx_facts t
  funext j
  show V m c main_v4 (((cfg0.win 2).blk t).view.emb j) = V m c main_v4 j
  congr 1
  funext a; apply Fin.ext
  match a with
  | ⟨0, _⟩ => show win0_2.index t (0 : Fin 2) * 4 + 1 * (j 0).val = (j 0).val; rw [e4]; omega
  | ⟨1, _⟩ => show win0_2.index t (1 : Fin 2) * 4 + 1 * (j 1).val = (j 1).val; rw [e5]; omega

end Cert.KernelIdeal.Arrays

end
-- ==== Proof.Tiles.lean ====
/-
  The kernel's order of summation against the row-major order.

  Write a flat index as ((q · 8192 + k) · 128 + l): q < 24 is the grid point, k < 8192 the row inside its block,
  l < 128 the lane.  The kernel sums k first (one point's rows), then the twelve points q = p · 12 + r of a half p,
  and the host finally sums the 2 × 128 results over p and l.  Regrouped, this is the sum over all
  2 · 12 · 8192 · 128 = 524288 · 48 flat indices.  Addition being commutative and associative is all that is used.
-/
import proofs.«134609_j32289564131835_1_alg».proof.Proof.Sums

noncomputable section

namespace Cert.Gmgs

open scoped BigOperators
open Finset

/-- One grid point's contribution at a lane: the sum over the 8192 rows of block q. -/
def rowSum (e : ℕ → EReal) (q l : ℕ) : EReal := ∑ k ∈ range 8192, e ((q * 8192 + k) * 128 + l)

/-- One half's contribution at a lane: the twelve points p · 12 + r, r < 12. -/
def halfSum (e : ℕ → EReal) (p l : ℕ) : EReal := ∑ r ∈ range 12, rowSum e (p * 12 + r) l

/-- All 128 lanes of one row M of the 196608 × 128 layout. -/
def laneSum (e : ℕ → EReal) (M : ℕ) : EReal := ∑ l ∈ range 128, e (M * 128 + l)

/-- All rows and lanes of one block q. -/
def blockSum (e : ℕ → EReal) (q : ℕ) : EReal := ∑ k ∈ range 8192, laneSum e (q * 8192 + k)

/-- One half over all lanes is its twelve blocks: the lane sum moved inside the sums over points and rows. -/
theorem half_lanes (e : ℕ → EReal) (p : ℕ) :
    ∑ l ∈ range 128, halfSum e p l = ∑ r ∈ range 12, blockSum e (p * 12 + r) := by
  unfold halfSum rowSum blockSum laneSum
  rw [sum_comm]
  refine sum_congr rfl fun r _ => ?_
  rw [sum_comm]

/-- THE REGROUPING: the two halves over all lanes are the sum over all flat indices. -/
theorem tiles_total (e : ℕ → EReal) :
    ∑ p ∈ range 2, ∑ l ∈ range 128, halfSum e p l = ∑ n ∈ range (524288 * 48), e n :=
  calc ∑ p ∈ range 2, ∑ l ∈ range 128, halfSum e p l
      = ∑ p ∈ range 2, ∑ r ∈ range 12, blockSum e (p * 12 + r) := sum_congr rfl fun p _ => half_lanes e p
    _ = ∑ q ∈ range (2 * 12), blockSum e q := BlockSparse.sum_range_tiles (blockSum e) 12 2
    _ = ∑ q ∈ range (2 * 12), ∑ k ∈ range 8192, laneSum e (q * 8192 + k) := rfl
    _ = ∑ M ∈ range (2 * 12 * 8192), laneSum e M := BlockSparse.sum_range_tiles (laneSum e) 8192 (2 * 12)
    _ = ∑ M ∈ range (2 * 12 * 8192), ∑ l ∈ range 128, e (M * 128 + l) := rfl
    _ = ∑ n ∈ range (2 * 12 * 8192 * 128), e n := BlockSparse.sum_range_tiles e 128 (2 * 12 * 8192)
    _ = ∑ n ∈ range (524288 * 48), e n := by norm_num

end Cert.Gmgs

end
-- ==== Proof.KClosed.lean ====
/-
  The accumulator in closed form, over the extended reals.

  Number the flat entries of pred and true in row-major order.  Grid point q = p · 12 + r reads the entries
  (q · 8192 + k) · 128 + l, so its step adds, at lane l, the sum over k < 8192 of their contributions.  After
  inner point r of half p the accumulator at lane l is therefore zero plus the row sums of points
  p · 12, …, p · 12 + r.
-/
import proofs.«134609_j32289564131835_1_alg».proof.Proof.KAccum
import proofs.«134609_j32289564131835_1_alg».proof.Proof.KStep
import proofs.«134609_j32289564131835_1_alg».proof.Proof.KArrays
import proofs.«134609_j32289564131835_1_alg».proof.Proof.Tiles

noncomputable section

open Idealize.ShloMosaic Idealize.ShloMosaic.TcCoe Idealize.SL.Sem Idealize.ShloMosaic.ValueIdx

namespace Cert.KernelIdeal.Pieces

open Cert.KernelIdeal Cert.KernelIdeal.Gen Cert.KernelIdeal.Arrays Cert.Gmgs
open scoped BigOperators

variable (m : (ℓ : Loc nD τ sig) → Buf (Elt Ideal) ℓ)

/-- The contribution of flat entry n of core c's pred and true, with the table of core c's third argument. -/
def contrib (c : Dev nD) : ℕ → EReal :=
  entryAt (m ((c : Thread nD τ).loc main_arg0)) (m ((c : Thread nD τ).loc main_arg1))
    (tableOf (m ((c : Thread nD τ).loc main_arg2)))

/-! ## The accumulator's recursion, unfolded -/

/-- At the first inner point of a half the accumulator is one step from zero. -/
theorem acc_first (c : Dev nD) : ∀ (n : ℕ) (h : n < cfg0.N), n % 12 = 0 →
    acc m c n h = step (iblk m c 0 ⟨n, h⟩) (iblk m c 1 ⟨n, h⟩) (iblk m c 2 ⟨n, h⟩) (zeroAcc (F := Ideal))
  | 0, h, _ => rfl
  | n + 1, h, h0 => by
    show step _ _ _ (if (n + 1) % 12 = 0 then zeroAcc else acc m c n _) = _
    rw [if_pos h0]

/-- At any other point it is one step from the previous point's. -/
theorem acc_next (c : Dev nD) (n : ℕ) (h : n + 1 < cfg0.N) (h0 : ¬(n + 1) % 12 = 0) :
    acc m c (n + 1) h = step (iblk m c 0 ⟨n + 1, h⟩) (iblk m c 1 ⟨n + 1, h⟩) (iblk m c 2 ⟨n + 1, h⟩) (acc m c n (Nat.lt_of_succ_lt h)) := by
  show step _ _ _ (if (n + 1) % 12 = 0 then zeroAcc else acc m c n _) = _
  rw [if_neg h0]

/-! ## One point's rows -/

/-- The rows of grid point t's blocks, at lane l, contribute the row sum of block t over the flat entries. -/
theorem point_sum (c : Dev nD) (t : Fin cfg0.N) (l : Fin 128) :
    ∑ k : Fin 8192, term (iblk m c 2 t) (iblk m c 0 t (ix2 k l)) (iblk m c 1 t (ix2 k l))
      = rowSum (contrib m c) t.val l.val := by
  unfold rowSum
  rw [← Fin.sum_univ_eq_sum_range (fun k => contrib m c ((t.val * 8192 + k) * 128 + l.val)) 8192]
  refine Finset.sum_congr rfl fun k _ => ?_
  rw [blk2_eq, V_v4, blk0_at, blk1_at, V_v6, V_v8, lanes_at, lanes_at]
  rfl

/-! ## The closed form -/

/-- THE ACCUMULATOR after inner point r of half p, at lane l: zero plus the row sums of the half's points so far. -/
theorem acc_closed (c : Dev nD) (p : ℕ) : ∀ (r : ℕ), r < 12 → ∀ (n : ℕ) (h : n < cfg0.N), n = p * 12 + r →
    ∀ (u : Fin 1) (l : Fin 128), acc m c n h (ix2 u l)
      = Ideal.ofBits .f32 0x00000000#32 + ∑ r' ∈ Finset.range (r + 1), rowSum (contrib m c) (p * 12 + r') l.val := by
  intro r
  induction r with
  | zero =>
    intro _ n h hn u l
    have h0 : n % 12 = 0 := by omega
    rw [acc_first m c n h h0]
    refine (step_apply (iblk m c 0 ⟨n, h⟩) (iblk m c 1 ⟨n, h⟩) (iblk m c 2 ⟨n, h⟩) (zeroAcc (F := Ideal)) u l).trans ?_
    rw [point_sum m c ⟨n, h⟩ l, Finset.sum_range_one]
    subst hn
    rfl
  | succ r ih =>
    intro hr n h hn u l
    obtain ⟨n', rfl⟩ : ∃ n', n = n' + 1 := ⟨p * 12 + r, by omega⟩
    have h0 : ¬(n' + 1) % 12 = 0 := by omega
    rw [acc_next m c n' h h0]
    refine (step_apply (iblk m c 0 ⟨n' + 1, h⟩) (iblk m c 1 ⟨n' + 1, h⟩) (iblk m c 2 ⟨n' + 1, h⟩) (acc m c n' (Nat.lt_of_succ_lt h)) u l).trans ?_
    rw [point_sum m c ⟨n' + 1, h⟩ l, ih (by omega) n' (Nat.lt_of_succ_lt h) (by omega) u l,
      Finset.sum_range_succ _ (r + 1), add_assoc]
    show _ + (_ + rowSum (contrib m c) (n' + 1) l.val) = _
    rw [hn]

end Cert.KernelIdeal.Pieces

end
-- ==== Proof.KFinal.lean ====
/-
  The kernel's result.

  Block p of the [2,1,128] output is written once, after the last inner point of half p, with the accumulator:
  entry (p, 0, l) is zero plus the sum of the half's twelve row sums at lane l.  The host then adds all 2 × 128
  entries to zero and divides by 524288.  Regrouped (Tiles), the 2 × 128 × 12 × 8192 contributions are the
  524288 · 48 contributions in row-major order, so the result is Spec's loss.
-/
import proofs.«134609_j32289564131835_1_alg».proof.Proof.KClosed
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Cert.KernelIdeal.Arrays Cert.Gmgs
open scoped BigOperators

variable (m : (ℓ : Loc nD τ sig) → Buf (Elt Ideal) ℓ) (ρ : Dev nD → PrngReg)

/-! ## The output array -/

/-- What the output array ends holding: entry (p, 0, l) is zero plus half p's sum at lane l. -/
def outArr (c : Dev nD) : Buf (Elt Ideal) ((c : Thread nD τ).loc main_v9) :=
  fun (i : S2x1x128.Idx) => Ideal.ofBits .f32 0x00000000#32 + halfSum (contrib m c) (i 0).val (i 2).val

/-- The one write-back of half p, after point p · 12 + 11, writes block p of that array. -/
theorem flushed_eq (c : Dev nD) (t : Fin cfg0.N) (hf : (cfg0.win 3).flush t = true) :
    (dats m 0 c).flushed 3 t = ((cfg0.win 3).blk t).view.read (Elt Ideal) (outArr m c) := by
  have h1 : t.val % 12 = 11 := (flush0_3 t).mp hf
  obtain ⟨-, -, -, -, -, -, e6, e7, e8⟩ := idx_facts t
  show (cfg0.win 3).cut (grid0.coords t) ((dats m 0 c).after 3 t) = _
  rw [after0_3, outsAt_out m c t h1]
  funext j
  show k0_pay1 (acc m c t.val t.isLt) j = outArr m c (((cfg0.win 3).blk t).view.emb j)
  obtain ⟨u0, u1, l, rfl⟩ : ∃ (u0 : Fin 1) (u1 : Fin 1) (l : Fin 128), j = ix3 u0 u1 l :=
    ⟨j 0, j 1, j 2, @eq_ix3 1 1 128 j⟩
  unfold k0_pay1
  rw [shapeCast_ab_1ab_apply, acc_closed m c (t.val / 12) 11 (by norm_num) t.val t.isLt (by omega) u1 l]
  unfold outArr halfSum
  have hemb0 : ((((cfg0.win 3).blk t).view.emb (ix3 u0 u1 l)) (0 : Fin 3)).val = t.val / 12 := by
    show win0_3.index t (0 : Fin 3) * 1 + 1 * u0.val = _
    rw [e6]; omega
  have hemb2 : ((((cfg0.win 3).blk t).view.emb (ix3 u0 u1 l)) (2 : Fin 3)).val = l.val := by
    show win0_3.index t (2 : Fin 3) * 128 + 1 * l.val = _
    rw [e8]; omega
  show _ = Ideal.ofBits .f32 0x00000000#32 + ∑ r ∈ Finset.range 12,
    rowSum (contrib m c) (((((cfg0.win 3).blk t).view.emb (ix3 u0 u1 l)) (0 : Fin 3)).val * 12 + r)
      ((((cfg0.win 3).blk t).view.emb (ix3 u0 u1 l)) (2 : Fin 3)).val
  rw [hemb0, hemb2]

/-- Every entry of the output array is in the block written after the last inner point of its half. -/
theorem cover (c : Dev nD) (i : S2x1x128.Idx) :
    ∃ t : Fin cfg0.N, (cfg0.win 3).flush t = true ∧ i ∈ ((cfg0.win 3).blk t).view.set := by
  have hN : cfg0.N = 24 := N_0
  have hi0 : (i 0).val < 2 := (i 0).isLt
  have hi1 : (i 1).val < 1 := (i 1).isLt
  have hi2 : (i 2).val < 128 := (i 2).isLt
  have ht : (i 0).val * 12 + 11 < cfg0.N := by omega
  obtain ⟨-, -, -, -, -, -, e6, e7, e8⟩ := idx_facts ⟨(i 0).val * 12 + 11, ht⟩
  have e6' : win0_3.index ⟨(i 0).val * 12 + 11, ht⟩ (0 : Fin 3) = ((i 0).val * 12 + 11) / 12 := e6
  refine ⟨⟨(i 0).val * 12 + 11, ht⟩, (flush0_3 _).mpr (by show ((i 0).val * 12 + 11) % 12 = 11; omega), ?_⟩
  show i ∈ ((View.whole main_v9).slice (win0_3.rect ⟨(i 0).val * 12 + 11, ht⟩)).set
  rw [View.set_slice_whole, Rect.mem_set_unit]
  intro a
  match a with
  | ⟨0, _⟩ =>
    show win0_3.index ⟨(i 0).val * 12 + 11, ht⟩ (0 : Fin 3) * 1 ≤ (i 0).val
      ∧ (i 0).val < win0_3.index ⟨(i 0).val * 12 + 11, ht⟩ (0 : Fin 3) * 1 + 1
    rw [e6']; omega
  | ⟨1, _⟩ =>
    show win0_3.index ⟨(i 0).val * 12 + 11, ht⟩ (1 : Fin 3) * 1 ≤ (i 1).val
      ∧ (i 1).val < win0_3.index ⟨(i 0).val * 12 + 11, ht⟩ (1 : Fin 3) * 1 + 1
    rw [e7]; omega
  | ⟨2, _⟩ =>
    show win0_3.index ⟨(i 0).val * 12 + 11, ht⟩ (2 : Fin 3) * 128 ≤ (i 2).val
      ∧ (i 2).val < win0_3.index ⟨(i 0).val * 12 + 11, ht⟩ (2 : Fin 3) * 128 + 128
    rw [e8]; omega

/-- So the output array ends at `outArr`. -/
theorem final (c : Dev nD) : (dats m 0 c).arrAt 3 cfg0.N = outArr m c :=
  (dats m 0 c).arrAt_eq_of_cover 3 (outArr m c) (flushed_eq m c) (cover c)

end Cert.KernelIdeal.Pieces

end
-- ==== Proof.LibIdx3.lean ====
/-
  A rank-3 index set is the product of its three coordinate ranges, so a sum over it is the triple sum over the
  coordinates; when the middle axis has size one, a double sum.
-/
import Idealize.ShloMosaic.Lib.ValueIdx

noncomputable section

namespace Idealize.ShloMosaic.ValueIdx

open scoped BigOperators

/-- A rank-3 index set is the product of its three coordinate ranges … -/
def idxEquiv3 {a b c : ℕ} : (⟨3, ![a, b, c]⟩ : Shape).Idx ≃ Fin a × Fin b × Fin c where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {a b c : ℕ} (f : (⟨3, ![a, b, c]⟩ : Shape).Idx → M) :
    ∑ i, f i = ∑ x : Fin a, ∑ y : Fin b, ∑ z : Fin c, f (ix3 x y z) := by
  rw [← Equiv.sum_comp (idxEquiv3 (a := a) (b := b) (c := c)).symm f, Fintype.sum_prod_type]
  refine Finset.sum_congr rfl fun x _ => ?_
  rw [Fintype.sum_prod_type]
  rfl

/-- With a middle axis of size one: the double sum over the outer and inner coordinates. -/
theorem sum_idx3_unit {M : Type*} [AddCommMonoid M] {a c : ℕ} (f : (⟨3, ![a, 1, c]⟩ : Shape).Idx → M) :
    ∑ i, f i = ∑ x : Fin a, ∑ z : Fin c, f (ix3 x (0 : Fin 1) z) := by
  rw [sum_idx3]
  refine Finset.sum_congr rfl fun x _ => ?_
  exact Fin.sum_univ_one fun y => ∑ z : Fin c, f (ix3 x y z)

end Idealize.ShloMosaic.ValueIdx

end
-- ==== Proof.KTail.lean ====
/-
  From the output array to the kernel's result.

  The host adds the 2 × 1 × 128 entries of the output array to zero and divides by 524288.  Each entry is zero
  plus a half's sum at a lane; the zeros drop out (0 + x = x on the extended reals), the 2 × 128 half sums regroup
  to the sum of all 524288 · 48 contributions, and the quotient is Spec's loss of the three arguments.
-/
import proofs.«134609_j32289564131835_1_alg».proof.Proof.KFinal
import proofs.«134609_j32289564131835_1_alg».proof.Proof.LibIdx3
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Cert.KernelIdeal.Arrays Cert.Gmgs
open scoped BigOperators

variable (m : (ℓ : Loc nD τ sig) → Buf (Elt Ideal) ℓ) (ρ : Dev nD → PrngReg)

/-- The host's sum of a [2,1,128] array into a scalar: zero plus the sum of all entries. -/
theorem tail_sum (y : (⟨S2x1x128, .f32⟩ : BufTy).Contents (Elt Ideal)) (i : S_.Idx) :
    Host.reduceAdd (F := Ideal) y (constant S_ .f32 0x00000000#32) reducesTo_S2x1x128_S_d0_1_2 h_S_ i
      = Ideal.ofBits .f32 0x00000000#32 + ∑ j : S2x1x128.Idx, y j := by
  simp only [Host.reduceAdd, Ideal.hostReduceAdd_def]
  exact Ideal.hostReduceAdd_total reducesTo_S2x1x128_S_d0_1_2 (fun b => b.elim0) y _ i

/-- The output array as a plain function of its index. -/
def outFn (c : Dev nD) : S2x1x128.Idx → EReal :=
  fun i => Ideal.ofBits .f32 0x00000000#32 + halfSum (contrib m c) (i 0).val (i 2).val

/-- All entries of the output array add up to the sum of all contributions. -/
theorem out_total (c : Dev nD) :
    ∑ j : S2x1x128.Idx, outFn m c j = lossSum (m ((c : Thread nD τ).loc main_arg0)) (m ((c : Thread nD τ).loc main_arg1)) (tableOf (m ((c : Thread nD τ).loc main_arg2))) := by
  refine (sum_idx3_unit (a := 2) (c := 128) (outFn m c)).trans ?_
  show ∑ x : Fin 2, ∑ z : Fin 128, (Ideal.ofBits .f32 0x00000000#32 + halfSum (contrib m c) x.val z.val) = _
  simp only [Ideal.ofBits_zero_f32, zero_add]
  rw [sum_fin_fin (fun p l => halfSum (contrib m c) p l) 2 128, tiles_total]
  rfl

/-- The kernel's result as contents of its result buffer: the loss, at the one index of a scalar. -/
def lossBuf (c : Dev nD) : Buf (Elt Ideal) ((c : Thread nD τ).loc main_v11) :=
  fun _ => loss (m ((c : Thread nD τ).loc main_arg0)) (m ((c : Thread nD τ).loc main_arg1)) (tableOf (m ((c : Thread nD τ).loc main_arg2)))

/-- The host operations after the region turn the output array into the loss. -/
theorem tail_eq (c : Dev nD) :
    Pipeline.afterTail₀ cfgs (dats m) 0 (V0 m) [hostOps1] c main_v11 = lossBuf m c := by
  unfold Pipeline.afterTail₀
  show StableHlo.after hostOps1 _ (Proc.devRef .tc main_v11) = _
  after_results
  rw [show Pipeline.withArrays (cfgs 0).spec c (V0 m c) (fun w => (dats m 0 c).arrAt w (cfgs 0).N)
        (Proc.devRef .tc main_v9) = outArr m c from
      (Pipeline.withArrays_arr spec0 launch0.win.arr_inj c _ _ 3).trans (final m c)]
  funext i
  show FloatOps.hostDivf (Host.reduceAdd (F := Ideal) (outArr m c) (constant S_ .f32 0x00000000#32)
      reducesTo_S2x1x128_S_d0_1_2 h_S_ i) (constant (F := Ideal) S_ .f32 0x49000000#32 i) = _
  rw [tail_sum]
  show Ideal.div (Ideal.ofBits .f32 0x00000000#32 + ∑ j : S2x1x128.Idx, outFn m c j)
    (Ideal.ofBits .f32 0x49000000#32) = _
  rw [out_total]
  rfl

/-- THE KERNEL'S RUN, READ: it ends with the loss of its arguments in the result buffer and the arguments as
    launched. -/
theorem run : θ_run defs (onTc (τ := τ) (main (F := Ideal))) ⟨m, fun _ => 0, ρ⟩ fun r => ∀ c : Dev nD,
      r.2.mem ((c : Thread nD τ).loc main_v11) = lossBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v11 (Pipeline.mem_restRefs_of main_v11 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Pieces

end
-- ==== Proof.lean ====
/-
  The kernel and its reference compute the same loss over the extended reals.

  Both programs form sm = exp(-S) / Σ exp(-S) from the 4×4 argument S, send every entry of pred and of true to a
  class in {0,1,2,3} (floor, clipped to [-1, 2], plus one), and sum (pred - true)² · sm[class of true, class of pred]
  over all 524288 · 48 entries, then divide by 524288.

  They differ in two ways.  The reference reads sm by an index (a gather); the kernel by sixteen nested
  selections, one per table entry.  A class is always one of 0, 1, 2, 3 — the infinities clip to the ends — so
  exactly one selection fires and the two readings agree, for every extended real, with no use of finiteness.
  And the reference adds the entries in row-major order, while the kernel lays them out as 196608 × 128, sums the
  8192 rows of each of 24 blocks lane by lane, accumulates twelve blocks per half, and adds the 2 × 128 results on
  the host.  Addition on the extended reals is commutative and associative, and 0 + x = x, so the two orders give
  the same sum; no other law is needed, so the precondition is never opened.

  The frames are the generated ones; the ideal pass rewrote nothing, so the preservation conjunct is trivial.
-/
import proofs.«134609_j32289564131835_1_alg».proof.Defs
import proofs.«134609_j32289564131835_1_alg».proof.Proof.Gen.Kernel
import proofs.«134609_j32289564131835_1_alg».proof.Proof.Gen.Kernel.Skeleton
import proofs.«134609_j32289564131835_1_alg».proof.Proof.Gen.Kernel.Launch
import proofs.«134609_j32289564131835_1_alg».proof.Proof.Gen.Kernel.Points
import proofs.«134609_j32289564131835_1_alg».proof.Proof.Gen.Kernel.Frame
import proofs.«134609_j32289564131835_1_alg».proof.Proof.Gen.KernelIdeal
import proofs.«134609_j32289564131835_1_alg».proof.Proof.Gen.KernelIdeal.Skeleton
import proofs.«134609_j32289564131835_1_alg».proof.Proof.Gen.KernelIdeal.Launch
import proofs.«134609_j32289564131835_1_alg».proof.Proof.Gen.KernelIdeal.Points
import proofs.«134609_j32289564131835_1_alg».proof.Proof.Gen.KernelIdeal.Frame
import proofs.«134609_j32289564131835_1_alg».proof.Proof.Gen.ReferenceIdeal
import proofs.«134609_j32289564131835_1_alg».proof.Proof.Gen.Pre_finite_inputs
import proofs.«134609_j32289564131835_1_alg».proof.Proof.Gen.ReferenceIdeal.Run
import proofs.«134609_j32289564131835_1_alg».proof.Proof.Gen.ReferenceIdeal.Read
import proofs.«134609_j32289564131835_1_alg».proof.Proof.RefValue
import proofs.«134609_j32289564131835_1_alg».proof.Proof.KTail
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs compute the table by the same operations: exp(-S) over the sum of all sixteen exp(-S). -/
theorem table_eq (x2 : (⟨Cert.ReferenceIdeal.S4x4, .f32⟩ : BufTy).Contents (Elt Ideal)) :
    Cert.ReferenceIdeal.Read.val_main_v4 (F := Ideal) x2 = Cert.KernelIdeal.Arrays.tableOf (F := Ideal) x2 := rfl

/-- From memories that agree on the three arguments both programs end with the loss of those arguments. -/
theorem algebraic : Cert.algebraic_KernelIdeal_ReferenceIdeal := by
  intro m ρ m' ρ' _ hagree
  refine ⟨fun c => Cert.KernelIdeal.Pieces.lossBuf m c, Cert.KernelIdeal.Pieces.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v36_eq (F := Ideal) _ _ _).trans ?_
  funext i
  rw [Cert.Gmgs.Ref.total, table_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
